-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S50331648 : Shape := ⟨1, ![50331648]⟩
abbrev S16x16 : Shape := ⟨2, ![16, 16]⟩
abbrev S131072 : Shape := ⟨1, ![131072]⟩
abbrev S16x1 : Shape := ⟨2, ![16, 1]⟩
abbrev S1x131072 : Shape := ⟨2, ![1, 131072]⟩
abbrev S16x131072 : Shape := ⟨2, ![16, 131072]⟩
abbrev S256 : Shape := ⟨1, ![256]⟩
abbrev S_ : Shape := ⟨0, ![]⟩

abbrev nBuf : Space → Nat
  | .hbm => 21
  | .vmem => 6
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S50331648, .f32⟩
  | .hbm, ⟨3, _⟩ => ⟨S50331648, .f32⟩
  | .hbm, ⟨4, _⟩ => ⟨S16x16, .f32⟩
  | .hbm, ⟨5, _⟩ => ⟨S16x16, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S_, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S131072, .f32⟩
  | .local _ .vmem, ⟨1, _⟩ => ⟨S131072, .f32⟩
  | .local _ .vmem, ⟨2, _⟩ => ⟨S131072, .f32⟩
  | .local _ .vmem, ⟨3, _⟩ => ⟨S131072, .f32⟩
  | .local _ .vmem, ⟨4, _⟩ => ⟨S16x16, .f32⟩
  | .local _ .vmem, ⟨5, _⟩ => ⟨S16x16, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![384], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S64x3x512x512_S50331648 : S64x3x512x512.ShapeCasts S50331648
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S131072_S131072_0 : ∀ a, (![0] : Fin 1 → Nat) a + S131072.size a ≤ S131072.size a
  h_S131072 : 0 < S131072.numel
  shapeCasts_S131072_S131072 : S131072.ShapeCasts S131072
  natLt_1_32 : 1 < 32
  iota_S16x1_d0_w32 : S16x1.Iotas .tc 32 [0]
  shapeCasts_S131072_S1x131072 : S131072.ShapeCasts S1x131072
  broadcasts_S1x131072_S16x131072 : S1x131072.Broadcasts S16x131072
  broadcasts_S16x1_S16x131072 : S16x1.Broadcasts S16x131072
  bitsLt_bf16_f32 : FTy.bits .bf16 < FTy.bits .f32
  shapeCasts_S16x16_S256 : S16x16.ShapeCasts S256
  reducesTo_S256_S_d0 : S256.ReducesTo [0] S_
  h_S_ : 0 < S_.numel
  bcast_S_S256 : S_.BroadcastsInDim S256 (![] : Fin 0 → Fin S256.rank)
  dot_S16x131072_S16x131072_S16x16_1_1_0_0_n_n_wf : DotDims.WF S16x131072 S16x131072 S16x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S131072.size a ≤ S50331648.size a
  hwx0_0 : ∀ i : grid0.Coords, EltTy.bits .f32 = 32 ∨ (Rect.block (s := S50331648) S131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S131072.size a ≤ S50331648.size a
  hwx0_1 : ∀ i : grid0.Coords, EltTy.bits .f32 = 32 ∨ (Rect.block (s := S50331648) S131072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)

variable [Facts₀]

def dot_S16x131072_S16x131072_S16x16_1_1_0_0_n_n : DotDims S16x131072 S16x131072 S16x16 where
  lhsContracting := [1]
  rhsContracting := [1]
  lhsNonContracting := [0]
  rhsNonContracting := [0]
  lhsBatch := []
  rhsBatch := []
  wf := dot_S16x131072_S16x131072_S16x16_1_1_0_0_n_n_wf

abbrev win0_0 : Pipeline.Window sig grid0 :=
  Pipeline.Window.ofSpec (Memref.whole main_v0) S131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S16x16.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S16x16.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S50331648 : Shape := ⟨1, ![50331648]⟩
abbrev S_ : Shape := ⟨0, ![]⟩
abbrev S256 : Shape := ⟨1, ![256]⟩
abbrev S50331648x1 : Shape := ⟨2, ![50331648, 1]⟩

abbrev nBuf : Space → Nat
  | .hbm => 73
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S50331648, .f32⟩
  | .hbm, ⟨3, _⟩ => ⟨S_, .f32⟩
  | .hbm, ⟨4, _⟩ => ⟨S50331648, .f32⟩
  | .hbm, ⟨5, _⟩ => ⟨S50331648, .i1⟩
  | .hbm, ⟨6, _⟩ => ⟨S_, .f32⟩
  | .hbm, ⟨7, _⟩ => ⟨S50331648, .f32⟩
  | .hbm, ⟨8, _⟩ => ⟨S50331648, .i1⟩
  | .hbm, ⟨9, _⟩ => ⟨S50331648, .i1⟩
  | .hbm, ⟨10, _⟩ => ⟨S_, .f32⟩
  | .hbm, ⟨11, _⟩ => ⟨S50331648, .f32⟩
  | .hbm, ⟨12, _⟩ => ⟨S50331648, .f32⟩
  | .hbm, ⟨13, _⟩ => ⟨S_, .f32⟩
  | .hbm, ⟨14, _⟩ => ⟨S50331648, .f32⟩
  | .hbm, ⟨15, _⟩ => ⟨S50331648, .f32⟩
  | .hbm, ⟨16, _⟩ => ⟨S50331648, .f32⟩
  | .hbm, ⟨17, _⟩ => ⟨S50331648, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S50331648, .i32⟩
  | .hbm, ⟨22, _⟩ => ⟨S50331648, .i32⟩
  | .hbm, ⟨23, _⟩ => ⟨S_, .i32⟩
  | .hbm, ⟨24, _⟩ => ⟨S50331648, .i32⟩
  | .hbm, ⟨25, _⟩ => ⟨S50331648, .i32⟩
  | .hbm, ⟨26, _⟩ => ⟨S50331648, .f32⟩
  | .hbm, ⟨27, _⟩ => ⟨S_, .f32⟩
  | .hbm, ⟨28, _⟩ => ⟨S256, .f32⟩
  | .hbm, ⟨29, _⟩ => ⟨S50331648x1, .i32⟩
  | .hbm, ⟨30, _⟩ => ⟨S256, .f32⟩
  | .hbm, ⟨31, _⟩ => ⟨S50331648, .f32⟩
  | .hbm, ⟨32, _⟩ => ⟨S_, .f32⟩
  | .hbm, ⟨33, _⟩ => ⟨S50331648, .f32⟩
  | .hbm, ⟨34, _⟩ => ⟨S50331648, .i1⟩
  | .hbm, ⟨35, _⟩ => ⟨S_, .f32⟩
  | .hbm, ⟨36, _⟩ => ⟨S50331648, .f32⟩
  | .hbm, ⟨37, _⟩ => ⟨S50331648, .i1⟩
  | .hbm, ⟨38, _⟩ => ⟨S50331648, .i1⟩
  | .hbm, ⟨39, _⟩ => ⟨S_, .f32⟩
  | .hbm, ⟨40, _⟩ => ⟨S50331648, .f32⟩
  | .hbm, ⟨41, _⟩ => ⟨S50331648, .f32⟩
  | .hbm, ⟨42, _⟩ => ⟨S_, .f32⟩
  | .hbm, ⟨43, _⟩ => ⟨S50331648, .f32⟩
  | .hbm, ⟨44, _⟩ => ⟨S50331648, .f32⟩
  | .hbm, ⟨45, _⟩ => ⟨S50331648, .f32⟩
  | .hbm, ⟨46, _⟩ => ⟨S50331648, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S50331648, .i32⟩
  | .hbm, ⟨51, _⟩ => ⟨S50331648, .i32⟩
  | .hbm, ⟨52, _⟩ => ⟨S_, .i32⟩
  | .hbm, ⟨53, _⟩ => ⟨S50331648, .i32⟩
  | .hbm, ⟨54, _⟩ => ⟨S50331648, .i32⟩
  | .hbm, ⟨55, _⟩ => ⟨S50331648, .f32⟩
  | .hbm, ⟨56, _⟩ => ⟨S_, .f32⟩
  | .hbm, ⟨57, _⟩ => ⟨S256, .f32⟩
  | .hbm, ⟨58, _⟩ => ⟨S50331648x1, .i32⟩
  | .hbm, ⟨59, _⟩ => ⟨S256, .f32⟩
  | .hbm, ⟨60, _⟩ => ⟨S_, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S_, .f32⟩
  | .hbm, ⟨65, _⟩ => ⟨S_, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_c_10 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v29 : Ref sig .tc := ⟨.hbm, 54, rfl⟩
abbrev main_v30 : Ref sig .tc := ⟨.hbm, 55, rfl⟩
abbrev main_cst_11 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_12 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_13 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_cst_15 : Ref sig .tc := ⟨.hbm, 71, rfl⟩
abbrev main_v42 : Ref sig .tc := ⟨.hbm, 72, rfl⟩

abbrev nD : Nat := 1
abbrev τ : Topo := Topo.v7x

variable {F : FTy → Type} [FloatOps F]

class Facts₀ : Prop where
  shapeCasts_S64x3x512x512_S50331648 : S64x3x512x512.ShapeCasts S50331648
  bcast_S_S50331648 : S_.BroadcastsInDim S50331648 (![] : Fin 0 → Fin S50331648.rank)
  bcast_S_S256 : S_.BroadcastsInDim S256 (![] : Fin 0 → Fin S256.rank)
  bcast_S50331648_S50331648x1_0 : S50331648.BroadcastsInDim S50331648x1 (![0] : Fin 1 → Fin S50331648x1.rank)
  reducesTo_S256_S_d0 : S256.ReducesTo [0] S_
  h_S_ : 0 < S_.numel
  scatter_S256_S50331648x1_S50331648_n_0_0_1_wf : ScatterDims.WF S256 S50331648x1 S50331648 [] [0] [0] 1

variable [Facts₀]

def scatter_S256_S50331648x1_S50331648_n_0_0_1 : ScatterDims S256 S50331648x1 S50331648 where
  updateWindowDims := []
  insertedWindowDims := [0]
  scatterDimsToOperandDims := [0]
  indexVectorDim := 1
  wf := scatter_S256_S50331648x1_S50331648_n_0_0_1_wf

class Facts : Prop extends Facts₀ where

variable [Facts]
-- ==== Proof.HistSpec.lean ====
/-
  The histogram both programs compute, as a function of one flat array of extended reals, and the arithmetic
  that joins the two ways of counting.

  A pixel value `x` is IN RANGE when `0 ≤ x ≤ 255`, and its BIN is `⌊x · c⌋` (c the single-precision word nearest
  256/255), converted to a 32-bit integer and clipped to `[0, 255]`.  The histogram's entry `k` counts the pixels in
  range whose bin is `k`.

  One program adds, for every pixel, the in-range indicator at the pixel's bin.  The other codes a pixel as its bin, or
  `-1` out of range, splits the code `e` by floor division as `e = 16·h + l`, and sums the products of the two
  indicators `[h = a]·[l = b]` into entry `(a, b)` of a 16 × 16 table, block of pixels by block of pixels.  For a code in
  `{-1} ∪ [0, 256)` and `a, b < 16` that product is the indicator of `e = 16·a + b` (the code `-1` has `h = -1`, which is
  no `a`), and a sum over blocks of sums inside a block is the sum over all pixels: so table entry `(a, b)` is histogram
  entry `16·a + b`.
-/
import Idealize.ShloMosaic.PureOps.Ideal
import Idealize.ShloMosaic.PureOps.Ideal.Laws
import Idealize.ShloMosaic.Lib.ValueIdx

noncomputable section

namespace Cert.HistSpec

open Idealize.ShloMosaic Idealize.ShloMosaic.ValueIdx

/-! ## Floor division by 16 on 32-bit words, as a truncating division corrected where the signs differ -/

/-- `⌊e / 16⌋`: the truncated quotient, less one when `e`'s sign is not the divisor's and the remainder is not zero. -/
def quot16 (e : BitVec 32) : BitVec 32 :=
  Scalar.select
    (IntOp.andi
      (IntOp.cmpi .ne
        (IntOp.subi ((IntOp.cmpi .sgt e 0#32).setWidth 32) ((IntOp.cmpi .slt e 0#32).setWidth 32))
        (Scalar.subi (Scalar.extui (Scalar.cmpi .sgt 16#32 0#32)) (Scalar.extui (Scalar.cmpi .slt 16#32 0#32))))
      (IntOp.cmpi .ne (IntOp.remsi .vector e 16#32) 0#32))
    (IntOp.subi (IntOp.divsi .vector e 16#32) 1#32)
    (IntOp.divsi .vector e 16#32)

/-- `e - 16·⌊e / 16⌋`. -/
def rem16 (e : BitVec 32) : BitVec 32 := IntOp.subi e (IntOp.muli (quot16 e) 16#32)

/-- On `[0, 256)` these are the natural-number quotient and remainder. -/
theorem quot16_rem16_ofNat : ∀ k : Fin 256,
    quot16 (BitVec.ofNat 32 k.val) = BitVec.ofNat 32 (k.val / 16) ∧ rem16 (BitVec.ofNat 32 k.val) = BitVec.ofNat 32 (k.val % 16) := by
  decide +kernel

/-- `⌊-1 / 16⌋ = -1`. -/
theorem quot16_neg_one : quot16 4294967295#32 = 4294967295#32 := by decide +kernel

theorem ofNat_inj {x y : ℕ} (hx : x < 4294967296) (hy : y < 4294967296) : BitVec.ofNat 32 x = BitVec.ofNat 32 y ↔ x = y := by
  constructor
  · intro h
    have := congrArg BitVec.toNat h
    rw [BitVec.toNat_ofNat, BitVec.toNat_ofNat] at this
    omega
  · rintro rfl; rfl

/-! ## Indicators as the programs spell them -/

/-- A 32-bit comparison for equality, widened and converted: `1` or `0`. -/
def hot (f : BitVec 32) (cat : ℕ) : EReal :=
  ((((IntOp.cmpi .eq f (BitVec.ofNat 32 cat)).setWidth 32).toInt : ℝ) : EReal)

theorem hot_eq (f : BitVec 32) (cat : ℕ) : hot f cat = if f = BitVec.ofNat 32 cat then 1 else 0 := by
  unfold hot IntOp.cmpi
  by_cases h : f = BitVec.ofNat 32 cat
  · have hb : (f == BitVec.ofNat 32 cat) = true := by simpa using h
    have h1 : ((BitVec.ofBool true).setWidth 32).toInt = 1 := by decide
    rw [if_pos h]
    simp only [hb, h1]
    simp
  · have hb : (f == BitVec.ofNat 32 cat) = false := by simpa using h
    have h0 : ((BitVec.ofBool false).setWidth 32).toInt = 0 := by decide
    rw [if_neg h]
    simp only [hb, h0]
    simp

/-- A one-bit word read unsigned and converted: `1` or `0`. -/
theorem bit_toNat (b : BitVec 1) : (((b.toNat : ℝ)) : EReal) = if b = 1#1 then 1 else 0 := by
  have : b = 0#1 ∨ b = 1#1 := by
    revert b; decide
  rcases this with rfl | rfl <;> simp

/-- The product of the two one-hot entries of a code `e` in `{-1} ∪ [0, 256)` at categories `a, b < 16` is the indicator
    of `e = 16·a + b`. -/
theorem hot_mul_hot (e : BitVec 32) (he : e = 4294967295#32 ∨ ∃ k : Fin 256, e = BitVec.ofNat 32 k.val) (a b : Fin 16) :
    hot (quot16 e) a.val * hot (rem16 e) b.val = if e = BitVec.ofNat 32 (16 * a.val + b.val) then 1 else 0 := by
  have ha := a.isLt
  have hb := b.isLt
  rw [hot_eq, hot_eq]
  rcases he with rfl | ⟨k, rfl⟩
  · rw [quot16_neg_one]
    have h1 : ¬ (4294967295#32 : BitVec 32) = BitVec.ofNat 32 a.val := by
      rw [show (4294967295#32 : BitVec 32) = BitVec.ofNat 32 4294967295 from rfl, ofNat_inj (by omega) (by omega)]; omega
    have h2 : ¬ (4294967295#32 : BitVec 32) = BitVec.ofNat 32 (16 * a.val + b.val) := by
      rw [show (4294967295#32 : BitVec 32) = BitVec.ofNat 32 4294967295 from rfl, ofNat_inj (by omega) (by omega)]; omega
    rw [if_neg h1, if_neg h2, zero_mul]
  · have hk := k.isLt
    obtain ⟨hq, hr⟩ := quot16_rem16_ofNat k
    rw [hq, hr]
    have e1 : BitVec.ofNat 32 (k.val / 16) = BitVec.ofNat 32 a.val ↔ k.val / 16 = a.val := ofNat_inj (by omega) (by omega)
    have e2 : BitVec.ofNat 32 (k.val % 16) = BitVec.ofNat 32 b.val ↔ k.val % 16 = b.val := ofNat_inj (by omega) (by omega)
    have e3 : BitVec.ofNat 32 k.val = BitVec.ofNat 32 (16 * a.val + b.val) ↔ k.val = 16 * a.val + b.val :=
      ofNat_inj (by omega) (by omega)
    simp only [e1, e2, e3]
    by_cases h : k.val = 16 * a.val + b.val
    · rw [if_pos (by omega), if_pos (by omega), if_pos h, one_mul]
    · by_cases h' : k.val / 16 = a.val
      · rw [if_pos h', if_neg (by omega), if_neg h, mul_zero]
      · rw [if_neg h', if_neg h, zero_mul]

/-- Clipping a word to `[0, 255]` (signed) leaves a word of `[0, 256)`. -/
theorem clip_range (z : BitVec 32) : ∃ k : Fin 256, IntOp.minsi 255#32 (IntOp.maxsi 0#32 z) = BitVec.ofNat 32 k.val := by
  unfold IntOp.minsi IntOp.maxsi
  by_cases h0 : z.slt 0#32 = true
  · rw [if_pos h0]
    exact ⟨0, by decide⟩
  · rw [if_neg h0]
    by_cases h1 : (255#32 : BitVec 32).slt z = true
    · rw [if_pos h1]; exact ⟨255, rfl⟩
    · rw [if_neg h1]
      have hz := z.isLt
      simp only [BitVec.slt, decide_eq_true_eq, BitVec.toInt, BitVec.toNat_ofNat] at h0 h1
      refine ⟨⟨z.toNat, ?_⟩, ?_⟩
      · split at h0 <;> split at h1 <;> omega
      · show z = BitVec.ofNat 32 z.toNat
        simp

/-! ## The histogram -/

/-- `0 ≤ x ≤ 255`, as a one-bit word. -/
def inRange (x : EReal) : BitVec 1 :=
  IntOp.andi (FloatOps.cmpf (F := Ideal) (φ := .f32) .oge x (FloatOps.ofBits .f32 0x00000000#32))
    (FloatOps.cmpf (F := Ideal) (φ := .f32) .ole x (FloatOps.ofBits .f32 0x437F0000#32))

/-- The bin of `x`: `⌊x · c⌋` as a 32-bit integer, clipped to `[0, 255]`. -/
def binOf (x : EReal) : BitVec 32 :=
  IntOp.minsi 255#32 (IntOp.maxsi 0#32
    (FloatOps.fptosi (F := Ideal) (φ := .f32) 32 (FloatOps.floor (F := Ideal) (φ := .f32)
      (FloatOps.mulf (F := Ideal) (φ := .f32) x (FloatOps.ofBits .f32 0x3F808081#32)))))

/-- The code of `x`: its bin, or `-1` out of range. -/
def codeOf (x : EReal) : BitVec 32 := Scalar.select (inRange x) (binOf x) 4294967295#32

theorem codeOf_range (x : EReal) : codeOf x = 4294967295#32 ∨ ∃ k : Fin 256, codeOf x = BitVec.ofNat 32 k.val := by
  unfold codeOf Scalar.select
  by_cases h : inRange x = 1
  · rw [if_pos h]; exact Or.inr (clip_range _)
  · rw [if_neg h]; exact Or.inl rfl

/-- What pixel `x` adds to histogram entry `k`. -/
def count (x : EReal) (k : ℕ) : EReal := if inRange x = 1#1 ∧ binOf x = BitVec.ofNat 32 k then 1 else 0

/-- The two one-hot entries of a pixel's code multiply to what the pixel adds to entry `16·a + b`. -/
theorem hot_code (x : EReal) (a b : Fin 16) :
    hot (quot16 (codeOf x)) a.val * hot (rem16 (codeOf x)) b.val = count x (16 * a.val + b.val) := by
  rw [hot_mul_hot _ (codeOf_range x)]
  unfold count codeOf Scalar.select
  have ha := a.isLt
  have hb := b.isLt
  by_cases h : inRange x = 1
  · rw [if_pos h]; simp [h]
  · rw [if_neg h]
    have h2 : ¬ (4294967295#32 : BitVec 32) = BitVec.ofNat 32 (16 * a.val + b.val) := by
      rw [show (4294967295#32 : BitVec 32) = BitVec.ofNat 32 4294967295 from rfl, ofNat_inj (by omega) (by omega)]; omega
    rw [if_neg h2, if_neg (fun hh => h hh.1)]

/-- The histogram of a flat array of `n` pixels. -/
def hist {n : ℕ} (X : (⟨1, ![n]⟩ : Shape).Idx → EReal) (k : ℕ) : EReal := ∑ N : Fin n, count (X (ix1 N)) k

/-! ## Sums over blocks -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- `A` blocks of `B` consecutive terms each are all `A·B` terms. -/
theorem sum_blocks {M : Type*} [AddCommMonoid M] (A B : ℕ) (g : ℕ → M) :
    ∑ t : Fin A, ∑ q : Fin B, g (t.val * B + q.val) = ∑ N : Fin (A * B), g N.val := by
  rw [← Equiv.sum_comp finProdFinEquiv (fun N : Fin (A * B) => g N.val), Fintype.sum_prod_type]
  refine Finset.sum_congr rfl fun t _ => Finset.sum_congr rfl fun q _ => ?_
  congr 1
  show t.val * B + q.val = q.val + B * t.val
  ring

theorem sum_blocks' {M : Type*} [AddCommMonoid M] (A B C : ℕ) (h : A * B = C) (g : ℕ → M) :
    ∑ t : Fin A, ∑ q : Fin B, g (t.val * B + q.val) = ∑ N : Fin C, g N.val := by
  subst h; exact sum_blocks A B g

end Cert.HistSpec

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.KernelTable.lean ====
/-
  What one grid point adds to a 16 × 16 table: the block's pixels are coded (the bin, or `-1` out of range), each code
  `e` is split by floor division as `16·h + l`, the quotients and the remainders are each compared with the categories
  `0 … 15` laid down a column, and the two 16 × 131072 one-hot arrays are multiplied along the pixel axis.  Entry
  `(a, b)` of the product is therefore the sum over the block's pixels of `[h = a]·[l = b]`, which is the number of pixels
  of the block that are in range with bin `16·a + b`.
-/
import proofs.«105696_j15040975470954_1_alg».proof.Proof.Gen.KernelIdeal.Skeleton
import proofs.«105696_j15040975470954_1_alg».proof.Proof.HistSpec
import proofs.«105696_j15040975470954_1_alg».proof.Proof.LibBroadcast
import proofs.«105696_j15040975470954_1_alg».proof.Proof.LibRowsProduct

noncomputable section

namespace Cert.KernelIdeal.Table

open Cert.KernelIdeal Cert.KernelIdeal.Gen Cert.HistSpec Idealize.ShloMosaic Idealize.ShloMosaic.ValueIdx

variable {F : FTy → Type} [FloatOps F]

/-- The floor quotients by 16 of a block of codes, and the remainders. -/
def quotV (e : IVec S131072 32) : IVec S131072 32 := fun i => quot16 (e i)
def remV (e : IVec S131072 32) : IVec S131072 32 := fun i => rem16 (e i)

/-- A block of words compared with the categories `0 … 15`: row `a` is the indicator of "the word is `a`". -/
def maskOf (f : IVec S131072 32) : FVec F S16x131072 .bf16 :=
  truncf .bf16 (sitofp .f32 (extui 32 (cmpi .eq
    (broadcastTo S16x131072 (shapeCast S1x131072 f shapeCasts_S131072_S1x131072) broadcasts_S1x131072_S16x131072)
    (broadcastTo S16x131072 (iota .tc S16x1 32 [0] iota_S16x1_d0_w32) broadcasts_S16x1_S16x131072)) natLt_1_32)) bitsLt_bf16_f32

/-- The table of one block of codes: the two masks multiplied along the pixel axis. -/
def tableOf (e : IVec S131072 32) : FVec F S16x16 .f32 :=
  matmul dot_S16x131072_S16x131072_S16x16_1_1_0_0_n_n none (maskOf (F := F) (quotV e)) (maskOf (F := F) (remV e))
    (constant S16x16 .f32 0x00000000#32)

/-- The second table's store: the running table plus the block's. -/
theorem pay1_eq (acc : FVec F S16x16 .f32) (e : IVec S131072 32) : k0_pay1 (F := F) acc e = addf acc (tableOf (F := F) e) := rfl

/-- The first table's store, the same over the first window's codes. -/
theorem pay10_eq (acc : FVec F S16x16 .f32) (x : Vec F S131072 .f32) :
    k0_pay10 (F := F) acc (k0_pay5 x) (k0_pay6 x) (k0_pay7 x) (k0_pay8 x) k0_pay9 = addf acc (tableOf (F := F) (k0_pay5 x)) := rfl

/-- The categories' column holds `a` at row `a`. -/
theorem iota_col_apply (a : Fin 16) :
    iota .tc S16x1 32 [0] iota_S16x1_d0_w32 (ix2 a (0 : Fin 1)) = BitVec.ofNat 32 a.val := by
  show BitVec.ofNat 32 (0 * 16 + a.val) = _
  rw [Nat.zero_mul, Nat.zero_add]

/-- At the ideal values a mask's entry `(a, q)` is the indicator of "word `q` is `a`". -/
theorem maskOf_apply (f : IVec S131072 32) (a : Fin 16) (q : Fin 131072) :
    maskOf (F := Ideal) f (ix2 a q) = hot (f (ix1 q)) a.val := by
  show ((((IntOp.cmpi .eq
      (broadcastTo S16x131072 (shapeCast S1x131072 f shapeCasts_S131072_S1x131072) broadcasts_S1x131072_S16x131072 (ix2 a q))
      (broadcastTo S16x131072 (iota .tc S16x1 32 [0] iota_S16x1_d0_w32) broadcasts_S16x1_S16x131072 (ix2 a q))).setWidth 32).toInt : ℝ) : EReal) = _
  rw [Cert.RowsProduct.broadcastTo_1n_an_apply, Cert.Layout.shapeCast_row_apply, Cert.Layout.broadcastTo_a1_ab_apply, iota_col_apply]
  rfl

/-- The codes of a block of pixels, pixel by pixel. -/
theorem pay5_apply (x : Vec Ideal S131072 .f32) (q : Fin 131072) : k0_pay5 (F := Ideal) x (ix1 q) = codeOf (x (ix1 q)) := by
  unfold k0_pay5
  simp only [shapeCast_self]
  rfl

theorem pay12_apply (x : Vec Ideal S131072 .f32) (q : Fin 131072) : k0_pay12 (F := Ideal) x (ix1 q) = codeOf (x (ix1 q)) := by
  unfold k0_pay12
  simp only [shapeCast_self]
  rfl

/-- The table of a block of codes at `(a, b)`: the sum over the block of the products of the two indicators. -/
theorem tableOf_apply (e : IVec S131072 32) (a b : Fin 16) :
    tableOf (F := Ideal) e (ix2 a b) = ∑ q : Fin 131072, hot (quot16 (e (ix1 q))) a.val * hot (rem16 (e (ix1 q))) b.val := by
  unfold tableOf dot_S16x131072_S16x131072_S16x16_1_1_0_0_n_n
  refine (Cert.RowsProduct.matmul_nt_apply (m := 16) (n := 16) (k := 131072) _ none _ _ a b).trans ?_
  refine Finset.sum_congr rfl fun q _ => ?_
  rw [maskOf_apply, maskOf_apply]
  rfl

/-- The table of a block of PIXELS at `(a, b)`: how many of them are in range with bin `16·a + b`. -/
theorem tableOf_codes_apply (e : IVec S131072 32) (x : Vec Ideal S131072 .f32) (he : ∀ q : Fin 131072, e (ix1 q) = codeOf (x (ix1 q)))
    (a b : Fin 16) :
    tableOf (F := Ideal) e (ix2 a b) = ∑ q : Fin 131072, count (x (ix1 q)) (16 * a.val + b.val) := by
  rw [tableOf_apply]
  refine Finset.sum_congr rfl fun q _ => ?_
  rw [he q, hot_code]

end Cert.KernelIdeal.Table

end
-- ==== Proof.KernelAccum.lean ====
/-
  What the two 16 × 16 tables hold after each grid point.  At the first point the body stores zeros and then the zeros
  plus the first block's table; at every later point it stores what the point before left plus that block's table.  So
  after point `n` each table is the ordered sum `((0 + T₀) + T₁) + … + Tₙ` of the blocks' tables: by induction on the
  point, never by listing the 384 points.
-/
import proofs.«105696_j15040975470954_1_alg».proof.Proof.Gen.KernelIdeal.Frame
import proofs.«105696_j15040975470954_1_alg».proof.Proof.KernelTable
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Table Cert.HistSpec Idealize.ShloMosaic.ValueIdx

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The zero table the first point stores. -/
abbrev zero : Vec F S16x16 .f32 := broadcast S16x16 (Scalar.ofBits .f32 0x00000000#32)

/-- A LATER point leaves, in the first table's buffer holding `xo2`, `xo2` plus the table of the first window's block. -/
theorem out_B_2 (c : Dev nD) (i : grid0.Coords) (a1 : Memref sig .tc .vmem S131072 .f32) (h1 : a1.IsWhole)
    (a2 : Memref sig .tc .vmem S131072 .f32) (h2 : a2.IsWhole) (a3 : Memref sig .tc .vmem S16x16 .f32) (h3 : a3.IsWhole)
    (a4 : Memref sig .tc .vmem S16x16 .f32) (h4 : a4.IsWhole) (hc : ¬cond0_0 i)
    (x0 x1 : Vec F S131072 .f32) (xo2 xo3 : Vec F S16x16 .f32) :
    out0_B_2 c i a1 h1 a2 h2 a3 h3 a4 h4 hc x0 x1 xo2 xo3 = addf xo2 (tableOf (F := F) (k0_pay5 x0)) := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h3.read_unread, View.ld_unit_zero (S := S16x16) hz,
    View.ld_unit_zero (S := S131072) hz1, k0_pay4, shapeCast_self]
  exact pay10_eq _ _

/-- … and in the second table's buffer holding `xo3`, `xo3` plus the table of the second window's block. -/
theorem out_B_3 (c : Dev nD) (i : grid0.Coords) (a1 : Memref sig .tc .vmem S131072 .f32) (h1 : a1.IsWhole)
    (a2 : Memref sig .tc .vmem S131072 .f32) (h2 : a2.IsWhole) (a3 : Memref sig .tc .vmem S16x16 .f32) (h3 : a3.IsWhole)
    (a4 : Memref sig .tc .vmem S16x16 .f32) (h4 : a4.IsWhole) (hc : ¬cond0_0 i)
    (x0 x1 : Vec F S131072 .f32) (xo2 xo3 : Vec F S16x16 .f32) :
    out0_B_3 c i a1 h1 a2 h2 a3 h3 a4 h4 hc x0 x1 xo2 xo3 = addf xo3 (tableOf (F := F) (k0_pay12 x1)) := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h2.read_unread, h4.read_unread, View.ld_unit_zero (S := S16x16) hz,
    View.ld_unit_zero (S := S131072) hz1, k0_pay11, shapeCast_self]
  exact pay1_eq _ _

/-- The FIRST point stores the zero table, reads it back, and leaves zero plus the first block's table. -/
theorem out_A_2 (c : Dev nD) (i : grid0.Coords) (a1 : Memref sig .tc .vmem S131072 .f32) (h1 : a1.IsWhole)
    (a2 : Memref sig .tc .vmem S131072 .f32) (h2 : a2.IsWhole) (a3 : Memref sig .tc .vmem S16x16 .f32) (h3 : a3.IsWhole)
    (a4 : Memref sig .tc .vmem S16x16 .f32) (h4 : a4.IsWhole) (hc : cond0_0 i)
    (x0 x1 : Vec F S131072 .f32) :
    out0_A_2 c i a1 h1 a2 h2 a3 h3 a4 h4 hc x0 x1 = addf zero (tableOf (F := F) (k0_pay5 x0)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S16x16) hz, View.readCov_unit_zero (S := S16x16) _ hz]
  simp only [View.readAt_eq_ld, h1.read_unread, View.ld_unit_zero (S := S16x16) hz, View.ld_unit_zero (S := S131072) hz1,
    k0_pay4, k0_pay2, shapeCast_self]
  exact pay10_eq _ _

theorem out_A_3 (c : Dev nD) (i : grid0.Coords) (a1 : Memref sig .tc .vmem S131072 .f32) (h1 : a1.IsWhole)
    (a2 : Memref sig .tc .vmem S131072 .f32) (h2 : a2.IsWhole) (a3 : Memref sig .tc .vmem S16x16 .f32) (h3 : a3.IsWhole)
    (a4 : Memref sig .tc .vmem S16x16 .f32) (h4 : a4.IsWhole) (hc : cond0_0 i)
    (x0 x1 : Vec F S131072 .f32) :
    out0_A_3 c i a1 h1 a2 h2 a3 h3 a4 h4 hc x0 x1 = addf zero (tableOf (F := F) (k0_pay12 x1)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S16x16) hz, View.readCov_unit_zero (S := S16x16) _ hz]
  simp only [View.readAt_eq_ld, h2.read_unread, View.ld_unit_zero (S := S16x16) hz, View.ld_unit_zero (S := S131072) hz1,
    k0_pay11, k0_pay3, shapeCast_self]
  exact pay1_eq _ _

/-- The two windows' blocks at a point, as vectors of 131072 pixels. -/
abbrev blk0 (c : Dev nD) (t : Fin cfg0.N) : Vec F S131072 .f32 := iblk m c 0 t
abbrev blk1 (c : Dev nD) (t : Fin cfg0.N) : Vec F S131072 .f32 := iblk m c 1 t

/-- The ORDERED running tables after point `n`: `0 + T₀`, then `+ Tₙ`. -/
def chain (c : Dev nD) : (n : ℕ) → n < cfg0.N → Vec F S16x16 .f32 × Vec F S16x16 .f32
  | 0, h => (addf zero (tableOf (F := F) (k0_pay5 (blk0 m c ⟨0, h⟩))), addf zero (tableOf (F := F) (k0_pay12 (blk1 m c ⟨0, h⟩))))
  | n + 1, h => (addf (chain c n (Nat.lt_of_succ_lt h)).1 (tableOf (F := F) (k0_pay5 (blk0 m c ⟨n + 1, h⟩))),
      addf (chain c n (Nat.lt_of_succ_lt h)).2 (tableOf (F := F) (k0_pay12 (blk1 m c ⟨n + 1, h⟩))))

/-- The running tables' recursion, component by component. -/
theorem chain_zero_fst (c : Dev nD) (h : 0 < cfg0.N) :
    (chain m c 0 h).1 = addf zero (tableOf (F := F) (k0_pay5 (blk0 m c ⟨0, h⟩))) := rfl
theorem chain_zero_snd (c : Dev nD) (h : 0 < cfg0.N) :
    (chain m c 0 h).2 = addf zero (tableOf (F := F) (k0_pay12 (blk1 m c ⟨0, h⟩))) := rfl
theorem chain_succ_fst (c : Dev nD) (n : ℕ) (h : n + 1 < cfg0.N) :
    (chain m c (n + 1) h).1 = addf (chain m c n (Nat.lt_of_succ_lt h)).1 (tableOf (F := F) (k0_pay5 (blk0 m c ⟨n + 1, h⟩))) := rfl
theorem chain_succ_snd (c : Dev nD) (n : ℕ) (h : n + 1 < cfg0.N) :
    (chain m c (n + 1) h).2 = addf (chain m c n (Nat.lt_of_succ_lt h)).2 (tableOf (F := F) (k0_pay12 (blk1 m c ⟨n + 1, h⟩))) := rfl

/-- What the tables' staging buffers hold after point `n` IS the running pair. -/
theorem outsAt_eq (c : Dev nD) : ∀ (n : ℕ) (h : n < cfg0.N), outsAt0 m c n h = chain m c n h
  | 0, h => by
    rw [outsAt0_A m c ⟨0, h⟩ rfl, out_A_2, out_A_3]
    rfl
  | n + 1, h => by
    have hN : cfg0.N = 384 := N_0
    have hB : ¬(⟨n + 1, h⟩ : Fin cfg0.N).val % 384 = 0 := by dsimp only; omega
    rw [outsAt0_B m c ⟨n + 1, h⟩ hB, out_B_2, out_B_3]
    show (addf (outsAt0 m c n _).1 _, addf (outsAt0 m c n _).2 _) = (addf (chain m c n _).1 _, addf (chain m c n _).2 _)
    rw [outsAt_eq c n]

end Cert.KernelIdeal.Accum

end
-- ==== Proof.HistTail.lean ====
/-
  The last lines of both programs, as ONE function of the two histograms `h₀, h₁` (256 entries each):
  `1 - Σₖ min (h₀ k / Σ h₀, h₁ k / Σ h₁)`, spelt with the host's own operations.  Both programs end with exactly these
  operations, so the function is only ever applied, never opened.
-/
import Idealize.ShloMosaic.PureOps.Ideal
import Idealize.ShloMosaic.Lib.ValueIdx

noncomputable section

namespace Cert.HistTail

open Idealize.ShloMosaic

abbrev T256 : Shape := ⟨1, ![256]⟩
abbrev T0 : Shape := ⟨0, ![]⟩

variable {F : FTy → Type} [FloatOps F]

/-- One minus the sum of the entrywise minima of the two normalised histograms. -/
def lossOf (hr : T256.ReducesTo [0] T0) (hpos : 0 < T0.numel) (hb : T0.BroadcastsInDim T256 (![] : Fin 0 → Fin T256.rank))
    (h0 h1 : FVec F T256 .f32) : FVec F T0 .f32 :=
  subf (constant (F := F) T0 .f32 0x3F800000#32)
    (Host.reduceAdd (F := F)
      (minimumf
        (Host.divf (F := F) h0 (broadcastInDim T256 ![] hb (Host.reduceAdd (F := F) h0 (constant (F := F) T0 .f32 0x00000000#32) hr hpos)))
        (Host.divf (F := F) h1 (broadcastInDim T256 ![] hb (Host.reduceAdd (F := F) h1 (constant (F := F) T0 .f32 0x00000000#32) hr hpos))))
      (constant (F := F) T0 .f32 0x00000000#32) hr hpos)

end Cert.HistTail

end
-- ==== Proof.KernelRun.lean ====
/-
  The kernel's run, read: each table's array ends holding the running table after the last grid point (the one point
  that writes it back, its one block the whole 16 × 16 array), and the result is the program's last lines applied to the
  two tables.
-/
import proofs.«105696_j15040975470954_1_alg».proof.Proof.KernelAccum
import proofs.«105696_j15040975470954_1_alg».proof.Proof.HistTail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Table Cert.KernelIdeal.Accum Cert.HistSpec Cert.HistTail
open Idealize.ShloMosaic.ValueIdx

variable {F : FTy → Type} [FloatOps F]
variable (m : (ℓ : Loc nD τ sig) → Buf (Elt F) ℓ) (ρ : Dev nD → PrngReg)

/-- The last grid point. -/
abbrev tlast : Fin cfg0.N := ⟨383, by rw [show cfg0.N = 384 from N_0]; decide⟩

/-- The two tables after the last point, as contents of the two result arrays. -/
abbrev result2 (c : Dev nD) : Buf (Elt F) ((c : Thread nD τ).loc main_v2_0) := (chain m c tlast.val tlast.isLt).1
abbrev result3 (c : Dev nD) : Buf (Elt F) ((c : Thread nD τ).loc main_v2_1) := (chain m c tlast.val tlast.isLt).2

/-- The one write-back of the first table, at the last point, writes it: block (0, 0) of a 16 × 16 array is the array. -/
theorem flushed_eq2 (c : Dev nD) (t : Fin cfg0.N) (hf : (cfg0.win 2).flush t = true) :
    (dats m 0 c).flushed 2 t = ((cfg0.win 2).blk t).view.read (Elt F) (result2 m c) := by
  have hN : cfg0.N = 384 := N_0
  have h3 : t.val = 383 := by have := (flush0_2 t).mp hf; have := t.isLt; omega
  obtain rfl : t = tlast := Fin.ext h3
  show (cfg0.win 2).cut (grid0.coords tlast) ((dats m 0 c).after 2 tlast) = _
  rw [after0_2, outsAt_eq]
  have hz' : (fun a => win0_2.index tlast a * main_v2_0.ty.shape.size a) = fun _ => 0 := funext fun a => by fin_cases a <;> rfl
  exact (Memref.read_access_unit_zero (Elt F) main_v2_0 hz' (fun a => by rw [congrFun hz' a]; simp) (result2 m c)).symm

theorem flushed_eq3 (c : Dev nD) (t : Fin cfg0.N) (hf : (cfg0.win 3).flush t = true) :
    (dats m 0 c).flushed 3 t = ((cfg0.win 3).blk t).view.read (Elt F) (result3 m c) := by
  have hN : cfg0.N = 384 := N_0
  have h3 : t.val = 383 := by have := (flush0_3 t).mp hf; have := t.isLt; omega
  obtain rfl : t = tlast := Fin.ext h3
  show (cfg0.win 3).cut (grid0.coords tlast) ((dats m 0 c).after 3 tlast) = _
  rw [after0_3, outsAt_eq]
  have hz' : (fun a => win0_3.index tlast a * main_v2_1.ty.shape.size a) = fun _ => 0 := funext fun a => by fin_cases a <;> rfl
  exact (Memref.read_access_unit_zero (Elt F) main_v2_1 hz' (fun a => by rw [congrFun hz' a]; simp) (result3 m c)).symm

/-- So each result array ends holding its table after the last point. -/
theorem final2 (c : Dev nD) : (dats m 0 c).arrAt 2 cfg0.N = result2 m c :=
  (dats m 0 c).arrAt_eq_of_cover 2 (result2 m c) (flushed_eq2 m c) fun i =>
    ⟨tlast, (flush0_2 tlast).mpr rfl, by
      show i ∈ ((View.whole main_v2_0).slice (win0_2.rect tlast)).set
      rw [View.set_slice_whole, Rect.mem_set_unit]
      intro a
      have h0 : (i 0 : Nat) < 16 := (i 0).isLt
      have h1 : (i 1 : Nat) < 16 := (i 1).isLt
      match a with
      | ⟨0, _⟩ => show win0_2.index tlast 0 * win0_2.size 0 ≤ (i 0 : Nat) ∧ (i 0 : Nat) < win0_2.index tlast 0 * win0_2.size 0 + win0_2.xsize (grid0.coords tlast) 0
                  rw [show win0_2.index tlast 0 * win0_2.size 0 = 0 from rfl, show win0_2.xsize (grid0.coords tlast) 0 = 16 from by decide +kernel]; omega
      | ⟨1, _⟩ => show win0_2.index tlast 1 * win0_2.size 1 ≤ (i 1 : Nat) ∧ (i 1 : Nat) < win0_2.index tlast 1 * win0_2.size 1 + win0_2.xsize (grid0.coords tlast) 1
                  rw [show win0_2.index tlast 1 * win0_2.size 1 = 0 from rfl, show win0_2.xsize (grid0.coords tlast) 1 = 16 from by decide +kernel]; omega⟩

theorem final3 (c : Dev nD) : (dats m 0 c).arrAt 3 cfg0.N = result3 m c :=
  (dats m 0 c).arrAt_eq_of_cover 3 (result3 m c) (flushed_eq3 m c) fun i =>
    ⟨tlast, (flush0_3 tlast).mpr rfl, by
      show i ∈ ((View.whole main_v2_1).slice (win0_3.rect tlast)).set
      rw [View.set_slice_whole, Rect.mem_set_unit]
      intro a
      have h0 : (i 0 : Nat) < 16 := (i 0).isLt
      have h1 : (i 1 : Nat) < 16 := (i 1).isLt
      match a with
      | ⟨0, _⟩ => show win0_3.index tlast 0 * win0_3.size 0 ≤ (i 0 : Nat) ∧ (i 0 : Nat) < win0_3.index tlast 0 * win0_3.size 0 + win0_3.xsize (grid0.coords tlast) 0
                  rw [show win0_3.index tlast 0 * win0_3.size 0 = 0 from rfl, show win0_3.xsize (grid0.coords tlast) 0 = 16 from by decide +kernel]; omega
      | ⟨1, _⟩ => show win0_3.index tlast 1 * win0_3.size 1 ≤ (i 1 : Nat) ∧ (i 1 : Nat) < win0_3.index tlast 1 * win0_3.size 1 + win0_3.xsize (grid0.coords tlast) 1
                  rw [show win0_3.index tlast 1 * win0_3.size 1 = 0 from rfl, show win0_3.xsize (grid0.coords tlast) 1 = 16 from by decide +kernel]; omega⟩

/-- The program's last lines on the two tables: each re-laid as 256 entries, then the shared last lines. -/
def tailOf (A2 A3 : FVec F S16x16 .f32) : FVec F S_ .f32 :=
  lossOf (F := F) reducesTo_S256_S_d0 h_S_ bcast_S_S256 (shapeCast S256 A2 shapeCasts_S16x16_S256) (shapeCast S256 A3 shapeCasts_S16x16_S256)

/-- What the lines after the region leave in the result: the last lines on the two final tables. -/
theorem tail_eq (c : Dev nD) :
    Pipeline.afterTail₀ cfgs (dats m) 0 (V0 m) [hostOps1] c main_v13 = tailOf (F := F) (result2 m c) (result3 m c) := by
  unfold Pipeline.afterTail₀
  show StableHlo.after hostOps1 _ (Proc.devRef .tc main_v13) = _
  after_results
  rw [show Pipeline.withArrays (cfgs 0).spec c (V0 m c) (fun w => (dats m 0 c).arrAt w (cfgs 0).N) (Proc.devRef .tc main_v2_0) = result2 m c from
      (Pipeline.withArrays_arr spec0 launch0.win.arr_inj c _ _ 2).trans (final2 m c),
    show Pipeline.withArrays (cfgs 0).spec c (V0 m c) (fun w => (dats m 0 c).arrAt w (cfgs 0).N) (Proc.devRef .tc main_v2_1) = result3 m c from
      (Pipeline.withArrays_arr spec0 launch0.win.arr_inj c _ _ 3).trans (final3 m c)]
  rfl

/-- The run, read: the result at the last lines of the two tables, the arguments unchanged. -/
theorem run : θ_run defs (onTc (τ := τ) (main (F := F))) ⟨m, fun _ => 0, ρ⟩ fun r => ∀ c : Dev nD,
      r.2.mem ((c : Thread nD τ).loc main_v13) = tailOf (F := F) (result2 m c) (result3 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v13 (Pipeline.mem_restRefs_of main_v13 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RunValue

end
-- ==== Proof.KernelHist.lean ====
/-
  At the ideal values the two final tables are the histograms of the two flattened arguments.

  Pixel `q` of block `t` is pixel `t·131072 + q` of the flattened array.  The running table after point `n`, at `(a, b)`,
  is the sum over the points `s ≤ n` of the number of pixels of block `s` in range with bin `16·a + b` (the zero the
  first point starts from adds nothing).  After the last point that is the sum over all 384 blocks of the sums inside a
  block, which is the sum over all pixels: the histogram's entry `16·a + b`.  Re-laid as 256 entries, entry `k` of a
  table is its entry `(k / 16, k mod 16)`: the histogram's entry `k`.
-/
import proofs.«105696_j15040975470954_1_alg».proof.Proof.KernelRun

noncomputable section

open Idealize.ShloMosaic Idealize.ShloMosaic.TcCoe Idealize.SL.Sem
open Idealize.ShloMosaic.Pipeline (Dat)

namespace Cert.KernelIdeal.HistValue

open Cert.KernelIdeal Cert.KernelIdeal.Gen Cert.KernelIdeal.Table Cert.KernelIdeal.Accum Cert.KernelIdeal.RunValue
open Cert.HistSpec Cert.HistTail Idealize.ShloMosaic.ValueIdx

variable (m : (ℓ : Loc nD τ sig) → Buf (Elt Ideal) ℓ)

/-- The region finds, as its first window's array, the first argument flattened; as its second, the second. -/
theorem V_main_v0 (c : Dev nD) : (V m c main_v0 : S50331648.Idx → EReal)
    = shapeCast S50331648 (m ((c : Thread nD τ).loc main_arg0)) shapeCasts_S64x3x512x512_S50331648 := by
  show StableHlo.after hostOps0 (fun b => m (c, b)) (Proc.devRef .tc main_v0) = _
  after_results
  rfl

theorem V_main_v1 (c : Dev nD) : (V m c main_v1 : S50331648.Idx → EReal)
    = shapeCast S50331648 (m ((c : Thread nD τ).loc main_arg1)) shapeCasts_S64x3x512x512_S50331648 := by
  show StableHlo.after hostOps0 (fun b => m (c, b)) (Proc.devRef .tc main_v1) = _
  after_results
  rfl

/-- Both input windows' block at point `t` is block number `t`. -/
theorem idx0 : ∀ t : Fin cfg0.N, win0_0.index t 0 = t.val :=
  (by decide +kernel : ∀ t : Fin grid0.N, win0_0.index t 0 = t.val)
theorem idx1 : ∀ t : Fin cfg0.N, win0_1.index t 0 = t.val :=
  (by decide +kernel : ∀ t : Fin grid0.N, win0_1.index t 0 = t.val)

theorem pix_lt (t : Fin cfg0.N) (q : Fin 131072) : t.val * 131072 + q.val < 50331648 := by
  have := t.isLt; have hN : cfg0.N = 384 := N_0; have := q.isLt; omega

/-- Pixel `q` of the first window's block at point `t` is pixel `t·131072 + q` of its array. -/
theorem blk0_apply (c : Dev nD) (t : Fin cfg0.N) (q : Fin 131072) :
    blk0 m c t (ix1 q) = V m c main_v0 (ix1 ⟨t.val * 131072 + q.val, pix_lt t q⟩) := by
  unfold blk0 iblk
  rw [View.read_apply]
  show V m c main_v0 _ = V m c main_v0 _
  refine congrArg (V m c main_v0) (funext fun a => Fin.ext ?_)
  match a with
  | ⟨0, _⟩ => show win0_0.index t 0 * 131072 + 1 * q.val = t.val * 131072 + q.val; rw [idx0 t]; omega

theorem blk1_apply (c : Dev nD) (t : Fin cfg0.N) (q : Fin 131072) :
    blk1 m c t (ix1 q) = V m c main_v1 (ix1 ⟨t.val * 131072 + q.val, pix_lt t q⟩) := by
  unfold blk1 iblk
  rw [View.read_apply]
  show V m c main_v1 _ = V m c main_v1 _
  refine congrArg (V m c main_v1) (funext fun a => Fin.ext ?_)
  match a with
  | ⟨0, _⟩ => show win0_1.index t 0 * 131072 + 1 * q.val = t.val * 131072 + q.val; rw [idx1 t]; omega

/-- How many pixels of block `s` of an array are in range with bin `k` (nothing past the last block). -/
def blockCount (X : S50331648.Idx → EReal) (k s : ℕ) : EReal :=
  ∑ q : Fin 131072, if h : s * 131072 + q.val < 50331648 then Cert.HistSpec.count (X (ix1 ⟨s * 131072 + q.val, h⟩)) k else 0

/-- The blocks' counts add up to the histogram. -/
theorem sum_blockCount (X : S50331648.Idx → EReal) (k : ℕ) :
    ∑ s ∈ Finset.range 384, blockCount X k s = hist X k := by
  rw [Finset.sum_range]
  unfold blockCount hist
  rw [sum_blocks' 384 131072 50331648 rfl
    (fun N => if h : N < 50331648 then Cert.HistSpec.count (X (ix1 ⟨N, h⟩)) k else 0)]
  refine Finset.sum_congr rfl fun N _ => ?_
  rw [dif_pos N.isLt]

/-- Adding a table to the zero table leaves the table, entry by entry. -/
theorem zero_addf_apply (T : FVec Ideal S16x16 .f32) (j : S16x16.Idx) : addf (zero (F := Ideal)) T j = T j := by
  show (Ideal.ofBits .f32 0x00000000#32 : EReal) + T j = T j
  rw [Ideal.ofBits_zero_f32, zero_add]

/-- The first running table after point `n`, entry by entry: the counts of the blocks so far. -/
theorem chain_fst_apply (c : Dev nD) (a b : Fin 16) : ∀ (n : ℕ) (h : n < cfg0.N),
    (chain m c n h).1 (ix2 a b) = ∑ s ∈ Finset.range (n + 1), blockCount (V m c main_v0) (16 * a.val + b.val) s
  | 0, h => by
    rw [chain_zero_fst, zero_addf_apply, tableOf_codes_apply _ (blk0 m c ⟨0, h⟩) (fun q => pay5_apply _ q),
      Finset.sum_range_one]
    unfold blockCount
    refine Finset.sum_congr rfl fun q _ => ?_
    rw [dif_pos (pix_lt ⟨0, h⟩ q), blk0_apply]
  | n + 1, h => by
    rw [chain_succ_fst, addf_apply, chain_fst_apply c a b n, tableOf_codes_apply _ (blk0 m c ⟨n + 1, h⟩) (fun q => pay5_apply _ q),
      Finset.sum_range_succ _ (n + 1)]
    refine congrArg _ ?_
    unfold blockCount
    refine Finset.sum_congr rfl fun q _ => ?_
    rw [dif_pos (pix_lt ⟨n + 1, h⟩ q), blk0_apply]

theorem chain_snd_apply (c : Dev nD) (a b : Fin 16) : ∀ (n : ℕ) (h : n < cfg0.N),
    (chain m c n h).2 (ix2 a b) = ∑ s ∈ Finset.range (n + 1), blockCount (V m c main_v1) (16 * a.val + b.val) s
  | 0, h => by
    rw [chain_zero_snd, zero_addf_apply, tableOf_codes_apply _ (blk1 m c ⟨0, h⟩) (fun q => pay12_apply _ q),
      Finset.sum_range_one]
    unfold blockCount
    refine Finset.sum_congr rfl fun q _ => ?_
    rw [dif_pos (pix_lt ⟨0, h⟩ q), blk1_apply]
  | n + 1, h => by
    rw [chain_succ_snd, addf_apply, chain_snd_apply c a b n, tableOf_codes_apply _ (blk1 m c ⟨n + 1, h⟩) (fun q => pay12_apply _ q),
      Finset.sum_range_succ _ (n + 1)]
    refine congrArg _ ?_
    unfold blockCount
    refine Finset.sum_congr rfl fun q _ => ?_
    rw [dif_pos (pix_lt ⟨n + 1, h⟩ q), blk1_apply]

/-- A 16 × 16 table re-laid as 256 entries: entry `k` is entry `(k / 16, k mod 16)`. -/
theorem table_flat (A : FVec Ideal S16x16 .f32) (k : Fin 256) :
    shapeCast S256 A shapeCasts_S16x16_S256 (ix1 k)
      = A (ix2 (⟨k.val / 16, by have := k.isLt; omega⟩ : Fin 16) (⟨k.val % 16, by omega⟩ : Fin 16)) := by
  refine shapeCast_apply A shapeCasts_S16x16_S256 (ix1 k) _ ?_
  rw [Shape.rowMajor_val_two, Shape.rowMajor_val_one]
  show k.val / 16 * 16 + k.val % 16 = k.val
  omega

/-- The first final table, re-laid, is the histogram of the first argument flattened; the second likewise. -/
theorem flat2 (c : Dev nD) :
    shapeCast S256 (result2 m c) shapeCasts_S16x16_S256
      = fun i => hist (shapeCast S50331648 (m ((c : Thread nD τ).loc main_arg0)) shapeCasts_S64x3x512x512_S50331648) (i 0).val := by
  funext i
  obtain ⟨k, rfl⟩ : ∃ k : Fin 256, i = ix1 k := ⟨i 0, eq_ix1 i⟩
  rw [table_flat]
  show (chain m c 383 _).1 _ = _
  rw [chain_fst_apply m c _ _ 383 _, sum_blockCount, V_main_v0]
  have := k.isLt
  refine congrArg _ ?_
  show 16 * (k.val / 16) + k.val % 16 = k.val
  omega

theorem flat3 (c : Dev nD) :
    shapeCast S256 (result3 m c) shapeCasts_S16x16_S256
      = fun i => hist (shapeCast S50331648 (m ((c : Thread nD τ).loc main_arg1)) shapeCasts_S64x3x512x512_S50331648) (i 0).val := by
  funext i
  obtain ⟨k, rfl⟩ : ∃ k : Fin 256, i = ix1 k := ⟨i 0, eq_ix1 i⟩
  rw [table_flat]
  show (chain m c 383 _).2 _ = _
  rw [chain_snd_apply m c _ _ 383 _, sum_blockCount, V_main_v1]
  have := k.isLt
  refine congrArg _ ?_
  show 16 * (k.val / 16) + k.val % 16 = k.val
  omega

end Cert.KernelIdeal.HistValue

end
-- ==== Proof.ReferenceHist.lean ====
/-
  The reference's two scatter-adds are the histograms of its two flattened arguments, and its result is the shared
  last lines applied to them.

  The scatter-add of updates `u` at indices `idx` into zeros has at `k` the sum of the `u N` over the pixels `N` whose index
  (read signed) is `k`.  Here `u N` is the in-range indicator of pixel `N` and `idx N` its bin, a word of `[0, 256)`: so
  entry `k` is the number of pixels in range with bin `k`.  The reference forms the bin from `(x - 0)·c`; on the extended
  reals `x - 0 = x`.
-/
import proofs.«105696_j15040975470954_1_alg».proof.Proof.Gen.ReferenceIdeal.Read
import proofs.«105696_j15040975470954_1_alg».proof.Proof.HistSpec
import proofs.«105696_j15040975470954_1_alg».proof.Proof.HistTail

noncomputable section

namespace Cert.ReferenceIdeal.HistValue

open Cert.ReferenceIdeal Cert.ReferenceIdeal.Gen Cert.ReferenceIdeal.Read Cert.HistSpec Cert.HistTail
open Idealize.ShloMosaic Idealize.ShloMosaic.ValueIdx

/-- A 32-bit word read signed is `k < 256` exactly when it is the word `k`. -/
theorem toInt_eq_iff (w : BitVec 32) (k : ℕ) (hk : k < 256) : w.toInt = (k : ℤ) ↔ w = BitVec.ofNat 32 k := by
  constructor
  · intro h
    apply BitVec.eq_of_toNat_eq
    rw [BitVec.toNat_ofNat]
    have := w.isLt
    unfold BitVec.toInt at h
    split at h <;> omega
  · rintro rfl
    unfold BitVec.toInt
    rw [BitVec.toNat_ofNat]
    split <;> omega

/-- The start of update `N`'s window on the histogram's one axis: the scatter index at `(N, 0)`, read signed. -/
theorem start_eq (idx : IVec S50331648x1 32) (N : Fin 50331648) (a : Fin 1) :
    scatter_S256_S50331648x1_S50331648_n_0_0_1.start (ix1 N) idx a = (idx (ix2 N (0 : Fin 1))).toInt := by
  obtain rfl : a = 0 := Subsingleton.elim _ _
  unfold ScatterDims.start
  have ha : (0 : Fin 1) ∈ scatter_S256_S50331648x1_S50331648_n_0_0_1.scatterDimsToOperandDims := by
    unfold scatter_S256_S50331648x1_S50331648_n_0_0_1; simp
  rw [dif_pos ha]
  refine congrArg (fun v => (idx v).toInt) (funext fun b => Fin.ext ?_)
  match b with
  | ⟨0, _⟩ => rfl
  | ⟨1, _⟩ => rfl

/-- The update is one element: no window coordinate. -/
theorem window_eq (N : Fin 50331648) (a : Fin 1) :
    scatter_S256_S50331648x1_S50331648_n_0_0_1.window (ix1 N) a = 0 := by
  obtain rfl : a = 0 := Subsingleton.elim _ _
  unfold ScatterDims.window
  rw [dif_neg]
  unfold scatter_S256_S50331648x1_S50331648_n_0_0_1
  decide

/-- Update `N` lands on entry `k` exactly when its scatter index, read signed, is `k`. -/
theorem resultIdx_iff (idx : IVec S50331648x1 32) (N : Fin 50331648) (k : Fin 256) :
    scatter_S256_S50331648x1_S50331648_n_0_0_1.resultIdx? (ix1 N) idx = some (ix1 k)
      ↔ (idx (ix2 N (0 : Fin 1))).toInt = (k.val : ℤ) := by
  have hk := k.isLt
  unfold ScatterDims.resultIdx?
  constructor
  · intro h
    split at h
    · rename_i hc
      have h0 := congrArg (fun f : S256.Idx => (f 0).val) (Option.some.inj h)
      have hc0 := hc 0
      rw [start_eq, window_eq] at hc0
      simp only [start_eq, window_eq] at h0
      have : ((idx (ix2 N (0 : Fin 1))).toInt + ((0 : ℕ) : ℤ)).toNat = k.val := h0
      omega
    · exact absurd h (by simp)
  · intro h
    have hc : ∀ a : Fin 1, 0 ≤ scatter_S256_S50331648x1_S50331648_n_0_0_1.start (ix1 N) idx a
          + (scatter_S256_S50331648x1_S50331648_n_0_0_1.window (ix1 N) a : ℤ)
        ∧ scatter_S256_S50331648x1_S50331648_n_0_0_1.start (ix1 N) idx a
          + (scatter_S256_S50331648x1_S50331648_n_0_0_1.window (ix1 N) a : ℤ) < (S256.size a : ℤ) := by
      intro a
      obtain rfl : a = 0 := Subsingleton.elim _ _
      rw [start_eq, window_eq, h]
      constructor
      · omega
      · show (k.val : ℤ) + ((0 : ℕ) : ℤ) < ((256 : ℕ) : ℤ); omega
    rw [dif_pos hc]
    refine congrArg some (funext fun a => Fin.ext ?_)
    obtain rfl : a = 0 := Subsingleton.elim _ _
    show (scatter_S256_S50331648x1_S50331648_n_0_0_1.start (ix1 N) idx 0
      + (scatter_S256_S50331648x1_S50331648_n_0_0_1.window (ix1 N) 0 : ℤ)).toNat = k.val
    rw [start_eq, window_eq, h]
    omega

/-- A scatter-add, into zeros, of the pixels' in-range indicators at the pixels' bins is the histogram. -/
theorem scatter_hist (X : S50331648.Idx → EReal) (z : FVec Ideal S256 .f32) (idx : IVec S50331648x1 32) (upd : FVec Ideal S50331648 .f32)
    (hz : ∀ k, z k = 0) (hidx : ∀ N : Fin 50331648, idx (ix2 N (0 : Fin 1)) = binOf (X (ix1 N)))
    (hupd : ∀ N : Fin 50331648, upd (ix1 N) = if inRange (X (ix1 N)) = 1#1 then 1 else 0) (k : Fin 256) :
    Host.scatterAdd (F := Ideal) scatter_S256_S50331648x1_S50331648_n_0_0_1 z idx upd (ix1 k) = hist X k.val := by
  show Ideal.hostScatterAdd _ z idx upd (ix1 k) = _
  unfold Ideal.hostScatterAdd
  rw [hz, zero_add, Finset.sum_filter, sum_idx1]
  unfold hist
  refine Finset.sum_congr rfl fun N _ => ?_
  rw [hupd N]
  have key : scatter_S256_S50331648x1_S50331648_n_0_0_1.resultIdx? (ix1 N) idx = some (ix1 k)
      ↔ binOf (X (ix1 N)) = BitVec.ofNat 32 k.val := by
    rw [resultIdx_iff, hidx N, toInt_eq_iff _ _ k.isLt]
  unfold Cert.HistSpec.count
  by_cases h1 : inRange (X (ix1 N)) = 1#1
  · by_cases h2 : binOf (X (ix1 N)) = BitVec.ofNat 32 k.val
    · simp [key, h1, h2]
    · simp [key, h1, h2]
  · simp [h1]

end Cert.ReferenceIdeal.HistValue

end
-- ==== Proof.ReferenceValue.lean ====
/-
  The reference's result: the shared last lines applied to the histograms of its two flattened arguments.  Each scatter's
  operands are read off the program's stages: zeros; at pixel `N` the index is the pixel's bin (`x - 0 = x` on the
  extended reals) and the update the in-range indicator.
-/
import proofs.«105696_j15040975470954_1_alg».proof.Proof.ReferenceHist

noncomputable section

namespace Cert.ReferenceIdeal.HistValue

open Cert.ReferenceIdeal Cert.ReferenceIdeal.Gen Cert.ReferenceIdeal.Read Cert.HistSpec Cert.HistTail
open Idealize.ShloMosaic Idealize.ShloMosaic.ValueIdx

/-- The zeros the first scatter adds into. -/
theorem zeros_v14 (k : S256.Idx) : val_main_v14 (F := Ideal) k = 0 := by
  rw [val_main_v14_apply, val_main_cst_4_apply]
  exact Ideal.ofBits_zero_f32

/-- The first scatter's index for pixel `N` is the pixel's bin. -/
theorem idx_v15 (x0 : (⟨S64x3x512x512, .f32⟩ : BufTy).Contents (Elt Ideal)) (N : Fin 50331648) :
    val_main_v15 (F := Ideal) x0 (ix2 N (0 : Fin 1)) = binOf (val_main_v0 (F := Ideal) x0 (ix1 N)) := by
  rw [val_main_v15_apply]
  have e : idx_main_v15 (ix2 N (0 : Fin 1)) = ix1 N := by funext a; match a with | ⟨0, _⟩ => rfl
  rw [e, val_main_v12_apply, val_main_call0_v4_apply, val_main_call0_v3_apply, val_main_c_3_apply, val_main_call0_v2_apply,
    val_main_call0_v1_apply, val_main_call0_v0_apply, val_main_c_apply, val_main_v11_apply, val_main_v10_apply,
    val_main_v9_apply, val_main_v7_apply, val_main_v6_apply, val_main_cst_1_apply, val_main_v8_apply, val_main_cst_2_apply]
  have hsub : FloatOps.subf (F := Ideal) (φ := .f32) (val_main_v0 (F := Ideal) x0 (ix1 N)) (FloatOps.ofBits .f32 0x00000000#32)
      = val_main_v0 (F := Ideal) x0 (ix1 N) := by
    show val_main_v0 (F := Ideal) x0 (ix1 N) - Ideal.ofBits .f32 0x00000000#32 = _
    rw [Ideal.ofBits_zero_f32, sub_zero]
  rw [hsub]
  rfl

/-- The first scatter's update for pixel `N` is the pixel's in-range indicator. -/
theorem upd_v13 (x0 : (⟨S64x3x512x512, .f32⟩ : BufTy).Contents (Elt Ideal)) (N : Fin 50331648) :
    val_main_v13 (F := Ideal) x0 (ix1 N) = if inRange (val_main_v0 (F := Ideal) x0 (ix1 N)) = 1#1 then 1 else 0 := by
  rw [val_main_v13_apply, val_main_v5_apply, val_main_v2_apply, val_main_v4_apply, val_main_v1_apply, val_main_cst_apply,
    val_main_v3_apply, val_main_cst_0_apply]
  exact bit_toNat _

/-- The first scatter-add is the histogram of the first argument flattened. -/
theorem hist_v16 (x0 : (⟨S64x3x512x512, .f32⟩ : BufTy).Contents (Elt Ideal)) :
    val_main_v16 (F := Ideal) x0 = fun i => hist (val_main_v0 (F := Ideal) x0) (i 0).val := by
  funext i
  obtain ⟨k, rfl⟩ : ∃ k : Fin 256, i = ix1 k := ⟨i 0, eq_ix1 i⟩
  unfold val_main_v16
  exact scatter_hist (val_main_v0 (F := Ideal) x0) _ _ _ zeros_v14 (idx_v15 x0) (upd_v13 x0) k

/-- The zeros the second scatter adds into. -/
theorem zeros_v31 (k : S256.Idx) : val_main_v31 (F := Ideal) k = 0 := by
  rw [val_main_v31_apply, val_main_cst_11_apply]
  exact Ideal.ofBits_zero_f32

/-- The second scatter's index for pixel `N` is the pixel's bin. -/
theorem idx_v32 (x1 : (⟨S64x3x512x512, .f32⟩ : BufTy).Contents (Elt Ideal)) (N : Fin 50331648) :
    val_main_v32 (F := Ideal) x1 (ix2 N (0 : Fin 1)) = binOf (val_main_v17 (F := Ideal) x1 (ix1 N)) := by
  rw [val_main_v32_apply]
  have e : idx_main_v32 (ix2 N (0 : Fin 1)) = ix1 N := by funext a; match a with | ⟨0, _⟩ => rfl
  rw [e, val_main_v29_apply, val_main_call1_v4_apply, val_main_call1_v3_apply, val_main_c_10_apply, val_main_call1_v2_apply,
    val_main_call1_v1_apply, val_main_call1_v0_apply, val_main_c_9_apply, val_main_v28_apply, val_main_v27_apply,
    val_main_v26_apply, val_main_v24_apply, val_main_v23_apply, val_main_cst_7_apply, val_main_v25_apply, val_main_cst_8_apply]
  have hsub : FloatOps.subf (F := Ideal) (φ := .f32) (val_main_v17 (F := Ideal) x1 (ix1 N)) (FloatOps.ofBits .f32 0x00000000#32)
      = val_main_v17 (F := Ideal) x1 (ix1 N) := by
    show val_main_v17 (F := Ideal) x1 (ix1 N) - Ideal.ofBits .f32 0x00000000#32 = _
    rw [Ideal.ofBits_zero_f32, sub_zero]
  rw [hsub]
  rfl

/-- The second scatter's update for pixel `N` is the pixel's in-range indicator. -/
theorem upd_v30 (x1 : (⟨S64x3x512x512, .f32⟩ : BufTy).Contents (Elt Ideal)) (N : Fin 50331648) :
    val_main_v30 (F := Ideal) x1 (ix1 N) = if inRange (val_main_v17 (F := Ideal) x1 (ix1 N)) = 1#1 then 1 else 0 := by
  rw [val_main_v30_apply, val_main_v22_apply, val_main_v19_apply, val_main_v21_apply, val_main_v18_apply, val_main_cst_5_apply,
    val_main_v20_apply, val_main_cst_6_apply]
  exact bit_toNat _

/-- The second scatter-add is the histogram of the second argument flattened. -/
theorem hist_v33 (x1 : (⟨S64x3x512x512, .f32⟩ : BufTy).Contents (Elt Ideal)) :
    val_main_v33 (F := Ideal) x1 = fun i => hist (val_main_v17 (F := Ideal) x1) (i 0).val := by
  funext i
  obtain ⟨k, rfl⟩ : ∃ k : Fin 256, i = ix1 k := ⟨i 0, eq_ix1 i⟩
  unfold val_main_v33
  exact scatter_hist (val_main_v17 (F := Ideal) x1) _ _ _ zeros_v31 (idx_v32 x1) (upd_v30 x1) k

/-- The reference's result is the shared last lines of its two scatter-adds … -/
theorem result_eq (x0 x1 : (⟨S64x3x512x512, .f32⟩ : BufTy).Contents (Elt Ideal)) :
    val_main_v42 (F := Ideal) x0 x1
      = lossOf (F := Ideal) reducesTo_S256_S_d0 h_S_ bcast_S_S256 (val_main_v16 (F := Ideal) x0) (val_main_v33 (F := Ideal) x1) := rfl

/-- … that is, of the histograms of its two flattened arguments. -/
theorem result_hist (x0 x1 : (⟨S64x3x512x512, .f32⟩ : BufTy).Contents (Elt Ideal)) :
    val_main_v42 (F := Ideal) x0 x1
      = lossOf (F := Ideal) reducesTo_S256_S_d0 h_S_ bcast_S_S256
          (fun i => hist (shapeCast S50331648 x0 shapeCasts_S64x3x512x512_S50331648) (i 0).val)
          (fun i => hist (shapeCast S50331648 x1 shapeCasts_S64x3x512x512_S50331648) (i 0).val) := by
  rw [result_eq, hist_v16, hist_v33]
  rfl

end Cert.ReferenceIdeal.HistValue

end
-- ==== Proof.lean ====
/-
  The kernel computes a histogram-intersection loss of two images, and so does its reference; this file joins them.

  Both programs flatten each image to 50 331 648 pixels and form its 256-bin histogram: a pixel `x` counts when
  `0 ≤ x ≤ 255`, at the bin `⌊x·c⌋` clipped to `[0, 255]` (`c` the single-precision word nearest 256/255, the same word in
  both programs).  The reference adds each pixel's in-range indicator at the pixel's bin, all pixels at once.  The kernel
  walks 384 blocks of 131 072 pixels: it codes a pixel as its bin, or `-1` out of range, splits the code by floor division
  as `16·h + l`, and adds to entry `(a, b)` of a 16 × 16 table the block's sum of `[h = a]·[l = b]` (a product of two one-hot
  arrays along the pixel axis), starting from zero at the first block; the table re-laid as 256 entries is read at
  `16·a + b`.  For a code in `{-1} ∪ [0, 256)` the product `[h = a]·[l = b]` is the indicator of "the code is `16·a + b`", and the
  sum over the blocks of the sums inside a block is the sum over all pixels, so the kernel's tables are the reference's
  histograms entry by entry, over the extended reals (only sums of zeros and ones are re-ordered, which needs no
  finiteness).  Both programs then apply the same last lines to the two histograms — normalise each by its sum, take the
  entrywise minimum, sum, subtract from one — which are carried here as one function and never opened.

  The three frame claims are the generated frames (the reference's from its generated run); the idealization rewrote no
  operation, so `preserves` is trivial.
-/
import proofs.«105696_j15040975470954_1_alg».proof.Defs
import proofs.«105696_j15040975470954_1_alg».proof.Proof.Gen.Kernel
import proofs.«105696_j15040975470954_1_alg».proof.Proof.Gen.Kernel.Skeleton
import proofs.«105696_j15040975470954_1_alg».proof.Proof.Gen.Kernel.Launch
import proofs.«105696_j15040975470954_1_alg».proof.Proof.Gen.Kernel.Points
import proofs.«105696_j15040975470954_1_alg».proof.Proof.Gen.Kernel.Frame
import proofs.«105696_j15040975470954_1_alg».proof.Proof.Gen.KernelIdeal
import proofs.«105696_j15040975470954_1_alg».proof.Proof.Gen.KernelIdeal.Skeleton
import proofs.«105696_j15040975470954_1_alg».proof.Proof.Gen.KernelIdeal.Launch
import proofs.«105696_j15040975470954_1_alg».proof.Proof.Gen.KernelIdeal.Points
import proofs.«105696_j15040975470954_1_alg».proof.Proof.Gen.KernelIdeal.Frame
import proofs.«105696_j15040975470954_1_alg».proof.Proof.Gen.ReferenceIdeal
import proofs.«105696_j15040975470954_1_alg».proof.Proof.Gen.ReferenceIdeal.Run
import proofs.«105696_j15040975470954_1_alg».proof.Proof.Gen.ReferenceIdeal.Read
import proofs.«105696_j15040975470954_1_alg».proof.Proof.Gen.Pre_finite_inputs
import proofs.«105696_j15040975470954_1_alg».proof.Proof.KernelHist
import proofs.«105696_j15040975470954_1_alg».proof.Proof.ReferenceValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result: the shared last lines of the histograms of its two flattened arguments. -/
theorem kernel_value (m : (ℓ : Loc Cert.KernelIdeal.nD Cert.KernelIdeal.τ Cert.KernelIdeal.sig) → Buf (Elt Ideal) ℓ)
    (c : Dev Cert.KernelIdeal.nD) :
    Cert.KernelIdeal.RunValue.tailOf (F := Ideal) (Cert.KernelIdeal.RunValue.result2 m c) (Cert.KernelIdeal.RunValue.result3 m c)
      = Cert.HistTail.lossOf (F := Ideal) Cert.KernelIdeal.Facts₀.reducesTo_S256_S_d0 Cert.KernelIdeal.Facts₀.h_S_
          Cert.KernelIdeal.Facts₀.bcast_S_S256
          (fun i => Cert.HistSpec.hist (shapeCast Cert.KernelIdeal.S50331648
            (m ((c.tc : Thread Cert.KernelIdeal.nD Cert.KernelIdeal.τ).loc Cert.KernelIdeal.main_arg0))
            Cert.KernelIdeal.Facts₀.shapeCasts_S64x3x512x512_S50331648) (i 0).val)
          (fun i => Cert.HistSpec.hist (shapeCast Cert.KernelIdeal.S50331648
            (m ((c.tc : Thread Cert.KernelIdeal.nD Cert.KernelIdeal.τ).loc Cert.KernelIdeal.main_arg1))
            Cert.KernelIdeal.Facts₀.shapeCasts_S64x3x512x512_S50331648) (i 0).val) := by
  unfold Cert.KernelIdeal.RunValue.tailOf
  rw [Cert.KernelIdeal.HistValue.flat2, Cert.KernelIdeal.HistValue.flat3]

/-- At the ideal values the kernel's result and the reference's are the same last lines of the same two histograms. -/
theorem algebraic : Cert.algebraic_KernelIdeal_ReferenceIdeal := by
  intro m ρ m' ρ' _ hagree
  refine ⟨fun c => Cert.KernelIdeal.RunValue.tailOf (F := Ideal) (Cert.KernelIdeal.RunValue.result2 m c)
      (Cert.KernelIdeal.RunValue.result3 m c), Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.HistValue.result_hist, (hagree c).1, (hagree c).2]
  exact (kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
